-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x4096 : Shape := ⟨2, ![1024, 4096]⟩
abbrev S4096 : Shape := ⟨1, ![4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024x4096 .f32) (main_arg5 : FVec F S4096 .f32) (main_arg6 : FVec F S1024 .f32) (main_arg7 : FVec F S1024 .f32) (main_arg8 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x1024 .f32) (main_arg2 : FVec F S8192x1024 .f32) (main_arg3 : FVec F S1024x4096 .f32) (main_arg4 : FVec F S1024x4096 .f32) (main_arg5 : FVec F S4096 .f32) (main_arg6 : FVec F S1024 .f32) (main_arg7 : FVec F S1024 .f32) (main_arg8 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1024x4096 : Shape := ⟨2, ![1024, 4096]⟩
abbrev S4096 : Shape := ⟨1, ![4096]⟩
abbrev S1024 : Shape := ⟨1, ![1024]⟩
abbrev S2048x4096 : Shape := ⟨2, ![2048, 4096]⟩
abbrev S512x1024 : Shape := ⟨2, ![512, 1024]⟩
abbrev S512x2048 : Shape := ⟨2, ![512, 2048]⟩
abbrev S512x4096 : Shape := ⟨2, ![512, 4096]⟩
abbrev S1x4096 : Shape := ⟨2, ![1, 4096]⟩
abbrev S1x1024 : Shape := ⟨2, ![1, 1024]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S2048x4096, .f32⟩
  | .hbm, ⟨10, _⟩ => ⟨S2048x4096, .bf16⟩
  | .hbm, ⟨11, _⟩ => ⟨S8192x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S2048x4096, .bf16⟩
  | .local _ .vmem, ⟨7, _⟩ => ⟨S4096, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S1024x4096_S1024x4096_S2048x4096_d0 : Shape.Concatenates [S1024x4096, S1024x4096] S2048x4096 0
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  concatenates_S512x1024_S512x1024_S512x2048_d1 : Shape.Concatenates [S512x1024, S512x1024] S512x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  dot_S512x2048_S2048x4096_S512x4096_1_0_0_1_n_n_wf : DotDims.WF S512x2048 S2048x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .f32 = 32 ∨ (Rect.block (s := S8192x1024) S512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .f32 = 32 ∨ (Rect.block (s := S8192x1024) S512x1024.size (cc0_transform_9 i) (hinb0_9 i)).WholeWords (EltTy.packing .f32)

variable [Facts₀]

def dot_S512x2048_S2048x4096_S512x4096_1_0_0_1_n_n : DotDims S512x2048 S2048x4096 S512x4096 where
  lhsContracting := [1]
  rhsContracting := [0]
  lhsNonContracting := [0]
  rhsNonContracting := [1]
  lhsBatch := []
  rhsBatch := []
  wf := dot_S512x2048_S2048x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x4096 : Shape := ⟨2, ![1024, 4096]⟩
abbrev S4096 : Shape := ⟨1, ![4096]⟩
abbrev S1024 : Shape := ⟨1, ![1024]⟩
abbrev S8192x4096 : Shape := ⟨2, ![8192, 4096]⟩
abbrev S1x4096 : Shape := ⟨2, ![1, 4096]⟩
abbrev S1x1024 : Shape := ⟨2, ![1, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LstmSpec.lean ====
/-
  One step of an LSTM cell with peephole connections, as mathematics over the extended reals.

  For a batch row `r` and a unit `q` the four gate pre-activations are the columns `q`, `q + 1024`,
  `q + 2048`, `q + 3072` of
      z[r, j] = (Σ_k x[r, k] · W[k, j]  +  Σ_k h[r, k] · U[k, j])  +  b[j],
  the forget and input gates see the previous cell state through their peephole weights, the new cell state
  is  c' = σ(z_f + p_f · c) · c + σ(z_i + p_i · c) · tanh z_c,  the output gate sees the NEW cell state,
  and the new hidden state is  h' = σ(z_o + p_o · c') · tanh c'.
  Here σ is the logistic function `1 / (1 + e^(-t))` with its limits at the infinities.

  Also here: a sum over 2048 terms is the sum of its first 1024 terms plus the sum of its last 1024. This is
  the one law that joins a single product with the stacked weights [W; U] to the sum of the two products;
  it holds in any additive commutative monoid, so no finiteness of the summands is needed.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- A matrix of extended reals with `a` rows and `b` columns. -/
abbrev Mat (a b : Nat) : Type := (⟨2, ![a, b]⟩ : Shape).Idx → EReal
/-- A vector of extended reals of length `a`. -/
abbrev Row (a : Nat) : Type := (⟨1, ![a]⟩ : Shape).Idx → EReal

/-- Column `q + o` of the packed pre-activation: unit `q` of the gate whose columns start at `o`. -/
def gcol (o : Nat) (ho : o + 1024 ≤ 4096) (q : Fin 1024) : Fin 4096 := ⟨q.val + o, by have := q.isLt; omega⟩

/-- The packed gate pre-activation `z[r, j]`. -/
def preact (x h : Mat 8192 1024) (W U : Mat 1024 4096) (b : Row 4096) (r : Fin 8192) (j : Fin 4096) : EReal :=
  ((∑ k : Fin 1024, x (ix2 r k) * W (ix2 k j)) + ∑ k : Fin 1024, h (ix2 r k) * U (ix2 k j)) + b (ix1 j)

/-- The new cell state at row `r`, unit `q`. -/
def cellNext (x c h : Mat 8192 1024) (W U : Mat 1024 4096) (b : Row 4096) (pf pi : Row 1024)
    (r : Fin 8192) (q : Fin 1024) : EReal :=
  Ideal.logistic (preact x h W U b r (gcol 0 (by omega) q) + pf (ix1 q) * c (ix2 r q)) * c (ix2 r q)
    + Ideal.logistic (preact x h W U b r (gcol 1024 (by omega) q) + pi (ix1 q) * c (ix2 r q))
        * Ideal.tanh (preact x h W U b r (gcol 2048 (by omega) q))

/-- The new hidden state at row `r`, unit `q`. -/
def hiddenNext (x c h : Mat 8192 1024) (W U : Mat 1024 4096) (b : Row 4096) (pf pi po : Row 1024)
    (r : Fin 8192) (q : Fin 1024) : EReal :=
  Ideal.logistic (preact x h W U b r (gcol 3072 (by omega) q) + po (ix1 q) * cellNext x c h W U b pf pi r q)
    * Ideal.tanh (cellNext x c h W U b pf pi r q)

/-- The new cell state as an array. -/
def cellArr (x c h : Mat 8192 1024) (W U : Mat 1024 4096) (b : Row 4096) (pf pi : Row 1024) : Mat 8192 1024 :=
  fun i => cellNext x c h W U b pf pi (i 0) (i 1)

/-- The new hidden state as an array. -/
def hiddenArr (x c h : Mat 8192 1024) (W U : Mat 1024 4096) (b : Row 4096) (pf pi po : Row 1024) : Mat 8192 1024 :=
  fun i => hiddenNext x c h W U b pf pi po (i 0) (i 1)

/-- A sum of 2048 terms is the sum of the first 1024 plus the sum of the last 1024. -/
theorem sum_split_halves {M : Type} [AddCommMonoid M] (f : Fin 2048 → M) :
    ∑ k : Fin 2048, f k
      = (∑ k : Fin 1024, f ⟨k.val, by have := k.isLt; omega⟩)
        + ∑ k : Fin 1024, f ⟨k.val + 1024, by have := k.isLt; omega⟩ := by
  have h := Fin.sum_univ_add (a := 1024) (b := 1024) (f : Fin (1024 + 1024) → M)
  refine h.trans ?_
  exact congrArg₂ (· + ·) (Finset.sum_congr rfl fun k _ => congrArg f (Fin.ext rfl))
    (Finset.sum_congr rfl fun k _ => congrArg f (Fin.ext (by show 1024 + k.val = k.val + 1024; omega)))

/-- The pattern of the float `1.0` denotes the number one. -/
theorem ofBits_one : Ideal.ofBits .f32 0x3F800000#32 = 1 := IdealRules.sign_bit.ideal_onePat .f32

end Cert.Lstm

end
-- ==== Proof.RefSpec.lean ====
/-
  The reference program computes the LSTM step of `Cert.Lstm`.

  Read one operation at a time at a row `r` and a unit `q`: the two matrix products are sums over the
  1024 input features and the 1024 hidden features, the bias is broadcast along the rows, the four gate
  pre-activations are the four 1024-wide column bands of the packed sum, each peephole vector is broadcast
  along the rows, and every sigmoid is spelt  1 / (1 + e^(-t)),  which is the logistic function by definition.
-/
import proofs.«121975_j39960375722061_2_alg».proof.Proof.Gen.ReferenceIdeal.Read
import proofs.«121975_j39960375722061_2_alg».proof.Proof.LstmSpec

noncomputable section

namespace Cert.Lstm.Ref

open Idealize.ShloMosaic Idealize.ShloMosaic.ValueIdx Cert.ReferenceIdeal Cert.ReferenceIdeal.Read Cert.Lstm

variable (x0 x1 x2 : (⟨S8192x1024, .f32⟩ : BufTy).Contents (Elt Ideal))
  (x3 x4 : (⟨S1024x4096, .f32⟩ : BufTy).Contents (Elt Ideal))
  (x5 : (⟨S4096, .f32⟩ : BufTy).Contents (Elt Ideal))
  (x6 x7 x8 : (⟨S1024, .f32⟩ : BufTy).Contents (Elt Ideal))

/-- The packed pre-activation: input product plus recurrent product plus the bias of the column. -/
theorem z_at (r : Fin 8192) (j : Fin 4096) :
    val_main_v5 (F := Ideal) x0 x2 x3 x4 x5 (ix2 r j) = preact x0 x2 x3 x4 x5 r j := by
  have e1 : ∀ k, lidx_main_v0 (ix2 r j) k = ix2 r k := fun k => funext fun a => by
    match a with | ⟨0, _⟩ => rfl | ⟨1, _⟩ => rfl
  have e2 : ∀ k, ridx_main_v0 (ix2 r j) k = ix2 k j := fun k => funext fun a => by
    match a with | ⟨0, _⟩ => rfl | ⟨1, _⟩ => rfl
  have e3 : ∀ k, lidx_main_v1 (ix2 r j) k = ix2 r k := fun k => funext fun a => by
    match a with | ⟨0, _⟩ => rfl | ⟨1, _⟩ => rfl
  have e4 : ∀ k, ridx_main_v1 (ix2 r j) k = ix2 k j := fun k => funext fun a => by
    match a with | ⟨0, _⟩ => rfl | ⟨1, _⟩ => rfl
  have e5 : idx_main_v3 (idx_main_v4 (ix2 r j)) = ix1 j := funext fun a => by
    match a with | ⟨0, _⟩ => rfl
  rw [val_main_v5_apply, val_main_v2_apply, val_main_v0_apply, val_main_v1_apply, val_main_v4_apply, val_main_v3_apply]
  simp only [e1, e2, e3, e4, e5, Ideal.addf_def]
  rfl

/-- The forget gate's band: columns 0 … 1023. -/
theorem zf_at (r : Fin 8192) (q : Fin 1024) :
    val_main_v6 (F := Ideal) x0 x2 x3 x4 x5 (ix2 r q) = preact x0 x2 x3 x4 x5 r (gcol 0 (by omega) q) := by
  have e : idx_main_v6 (ix2 r q) = ix2 r (gcol 0 (by omega) q) := funext fun a => Fin.ext (by
    match a with | ⟨0, _⟩ => rfl | ⟨1, _⟩ => rfl)
  rw [val_main_v6_apply, e, z_at]

/-- The input gate's band: columns 1024 … 2047. -/
theorem zi_at (r : Fin 8192) (q : Fin 1024) :
    val_main_v7 (F := Ideal) x0 x2 x3 x4 x5 (ix2 r q) = preact x0 x2 x3 x4 x5 r (gcol 1024 (by omega) q) := by
  have e : idx_main_v7 (ix2 r q) = ix2 r (gcol 1024 (by omega) q) := funext fun a => Fin.ext (by
    match a with | ⟨0, _⟩ => rfl | ⟨1, _⟩ => show 1024 + q.val = q.val + 1024; omega)
  rw [val_main_v7_apply, e, z_at]

/-- The candidate's band: columns 2048 … 3071. -/
theorem zc_at (r : Fin 8192) (q : Fin 1024) :
    val_main_v8 (F := Ideal) x0 x2 x3 x4 x5 (ix2 r q) = preact x0 x2 x3 x4 x5 r (gcol 2048 (by omega) q) := by
  have e : idx_main_v8 (ix2 r q) = ix2 r (gcol 2048 (by omega) q) := funext fun a => Fin.ext (by
    match a with | ⟨0, _⟩ => rfl | ⟨1, _⟩ => show 2048 + q.val = q.val + 2048; omega)
  rw [val_main_v8_apply, e, z_at]

/-- The output gate's band: columns 3072 … 4095. -/
theorem zo_at (r : Fin 8192) (q : Fin 1024) :
    val_main_v9 (F := Ideal) x0 x2 x3 x4 x5 (ix2 r q) = preact x0 x2 x3 x4 x5 r (gcol 3072 (by omega) q) := by
  have e : idx_main_v9 (ix2 r q) = ix2 r (gcol 3072 (by omega) q) := funext fun a => Fin.ext (by
    match a with | ⟨0, _⟩ => rfl | ⟨1, _⟩ => show 3072 + q.val = q.val + 3072; omega)
  rw [val_main_v9_apply, e, z_at]

/-- The forget gate: the logistic function of its band plus the peephole term `p_f · c`. -/
theorem f_at (r : Fin 8192) (q : Fin 1024) :
    val_main_v19 (F := Ideal) x0 x1 x2 x3 x4 x5 x6 (ix2 r q)
      = Ideal.logistic (preact x0 x2 x3 x4 x5 r (gcol 0 (by omega) q) + x6 (ix1 q) * x1 (ix2 r q)) := by
  have e : idx_main_v10 (idx_main_v11 (ix2 r q)) = ix1 q := funext fun a => by
    match a with | ⟨0, _⟩ => rfl
  rw [val_main_v19_apply, val_main_v18_apply, val_main_cst_0_apply, val_main_v17_apply, val_main_v16_apply,
    val_main_cst_apply, val_main_v15_apply, val_main_v14_apply, val_main_v13_apply, val_main_v12_apply,
    val_main_v11_apply, val_main_v10_apply, zf_at, e]
  simp only [Ideal.hostDivf_def, Ideal.ofBits_def, ofBits_one, Ideal.addf_def, Ideal.hostUnary_exp_def,
    Ideal.hostNegf_def, Ideal.negf_def, Ideal.mulf_def]
  rfl

/-- The input gate: the logistic function of its band plus the peephole term `p_i · c`. -/
theorem i_at (r : Fin 8192) (q : Fin 1024) :
    val_main_v29 (F := Ideal) x0 x1 x2 x3 x4 x5 x7 (ix2 r q)
      = Ideal.logistic (preact x0 x2 x3 x4 x5 r (gcol 1024 (by omega) q) + x7 (ix1 q) * x1 (ix2 r q)) := by
  have e : idx_main_v20 (idx_main_v21 (ix2 r q)) = ix1 q := funext fun a => by
    match a with | ⟨0, _⟩ => rfl
  rw [val_main_v29_apply, val_main_v28_apply, val_main_cst_2_apply, val_main_v27_apply, val_main_v26_apply,
    val_main_cst_1_apply, val_main_v25_apply, val_main_v24_apply, val_main_v23_apply, val_main_v22_apply,
    val_main_v21_apply, val_main_v20_apply, zi_at, e]
  simp only [Ideal.hostDivf_def, Ideal.ofBits_def, ofBits_one, Ideal.addf_def, Ideal.hostUnary_exp_def,
    Ideal.hostNegf_def, Ideal.negf_def, Ideal.mulf_def]
  rfl

/-- The new cell state. -/
theorem c_at (r : Fin 8192) (q : Fin 1024) :
    val_main_v33 (F := Ideal) x0 x1 x2 x3 x4 x5 x6 x7 (ix2 r q) = cellNext x0 x1 x2 x3 x4 x5 x6 x7 r q := by
  rw [val_main_v33_apply, val_main_v31_apply, val_main_v32_apply, val_main_v30_apply, f_at, i_at, zc_at]
  simp only [Ideal.addf_def, Ideal.mulf_def, Ideal.hostUnary_tanh_def]
  rfl

/-- The new hidden state: the output gate sees the new cell state through `p_o`. -/
theorem h_at (r : Fin 8192) (q : Fin 1024) :
    val_main_v45 (F := Ideal) x0 x1 x2 x3 x4 x5 x6 x7 x8 (ix2 r q) = hiddenNext x0 x1 x2 x3 x4 x5 x6 x7 x8 r q := by
  have e : idx_main_v34 (idx_main_v35 (ix2 r q)) = ix1 q := funext fun a => by
    match a with | ⟨0, _⟩ => rfl
  rw [val_main_v45_apply, val_main_v44_apply, val_main_v43_apply, val_main_v42_apply, val_main_cst_4_apply,
    val_main_v41_apply, val_main_v40_apply, val_main_cst_3_apply, val_main_v39_apply, val_main_v38_apply,
    val_main_v37_apply, val_main_v36_apply, val_main_v35_apply, val_main_v34_apply, zo_at, c_at, e]
  simp only [Ideal.hostDivf_def, Ideal.ofBits_def, ofBits_one, Ideal.addf_def, Ideal.hostUnary_exp_def,
    Ideal.hostNegf_def, Ideal.negf_def, Ideal.mulf_def, Ideal.hostUnary_tanh_def]
  rfl

/-- The reference's second result is the new cell state array. -/
theorem cell_eq : val_main_v33 (F := Ideal) x0 x1 x2 x3 x4 x5 x6 x7 = cellArr x0 x1 x2 x3 x4 x5 x6 x7 :=
  funext fun i => by
    obtain ⟨r, q, rfl⟩ : ∃ (r : Fin 8192) (q : Fin 1024), i = ix2 r q := ⟨i 0, i 1, eq_ix2 i⟩
    exact c_at x0 x1 x2 x3 x4 x5 x6 x7 r q

/-- The reference's first result is the new hidden state array. -/
theorem hidden_eq : val_main_v45 (F := Ideal) x0 x1 x2 x3 x4 x5 x6 x7 x8 = hiddenArr x0 x1 x2 x3 x4 x5 x6 x7 x8 :=
  funext fun i => by
    obtain ⟨r, q, rfl⟩ : ∃ (r : Fin 8192) (q : Fin 1024), i = ix2 r q := ⟨i 0, i 1, eq_ix2 i⟩
    exact h_at x0 x1 x2 x3 x4 x5 x6 x7 x8 r q

end Cert.Lstm.Ref

end
-- ==== Proof.KernelPayload.lean ====
/-
  The kernel body's packed pre-activation at an index of its block.

  Per grid point the body holds 512 rows. It lays the rows of the input block and of the hidden-state
  block side by side into one 512 × 2048 matrix, multiplies it with the 2048 × 4096 stacked weights
  into a zero accumulator, and adds the bias broadcast along the rows. At row `p` and column `j` that is
      Σ_{k < 2048} [x | h][p, k] · Wc[k, j]  +  b[j],
  and since the left 1024 columns of [x | h] are x's and the right 1024 are h's, the sum splits into
      Σ_{k < 1024} x[p, k] · Wc[k, j]  +  Σ_{k < 1024} h[p, k] · Wc[k + 1024, j].
  A change of float format is the identity on the extended reals, so the two narrowings drop out.
-/
import proofs.«121975_j39960375722061_2_alg».proof.Proof.Gen.KernelIdeal.Skeleton
import proofs.«121975_j39960375722061_2_alg».proof.Proof.LstmSpec
import Idealize.ShloMosaic.Lib.Pipeline.Value
import Idealize.ShloMosaic.Lib.ValueIdx
import Idealize.ShloMosaic.PureOps.Ideal.Laws

noncomputable section

namespace Cert.Lstm.Kernel

open Idealize.ShloMosaic Idealize.ShloMosaic.ValueIdx Cert.KernelIdeal Cert.KernelIdeal.Gen Cert.Lstm

/-- A column `k < 1024` of the side-by-side matrix is column `k` of its left part. -/
theorem sideBySide_left (X H : FVec Ideal S512x1024 .bf16) (p : Fin 512) (k : Fin 1024) :
    concatenate S512x2048 1 [⟨S512x1024, X⟩, ⟨S512x1024, H⟩] concatenates_S512x1024_S512x1024_S512x2048_d1
        (ix2 p (⟨k.val, by have := k.isLt; omega⟩ : Fin 2048))
      = X (ix2 p k) := by
  refine concatenate_pair_apply_left (1 : Fin S512x2048.rank) X H _ _ rfl (ix2 p k) ?_
  intro b
  match b with
  | ⟨0, _⟩ => rfl
  | ⟨1, _⟩ => rfl

/-- A column `k + 1024` of the side-by-side matrix is column `k` of its right part. -/
theorem sideBySide_right (X H : FVec Ideal S512x1024 .bf16) (p : Fin 512) (k : Fin 1024) :
    concatenate S512x2048 1 [⟨S512x1024, X⟩, ⟨S512x1024, H⟩] concatenates_S512x1024_S512x1024_S512x2048_d1
        (ix2 p (⟨k.val + 1024, by have := k.isLt; omega⟩ : Fin 2048))
      = H (ix2 p k) := by
  refine concatenate_pair_apply_right (1 : Fin S512x2048.rank) X H _ _ rfl rfl (ix2 p k) ?_ ?_
  · intro b hb
    match b with
    | ⟨0, _⟩ => rfl
    | ⟨1, _⟩ => exact absurd rfl hb
  · rfl

/-- The matrix product into a zero accumulator, at row `p` and column `j`: the sum over the 2048 contracted
    positions of the left factor's row entry times the right factor's column entry. -/
theorem product_at (L : FVec Ideal S512x2048 .bf16) (R : FVec Ideal S2048x4096 .bf16) (p : Fin 512) (j : Fin 4096) :
    matmul dot_S512x2048_S2048x4096_S512x4096_1_0_0_1_n_n none L R (constant S512x4096 .f32 0x00000000#32) (ix2 p j)
      = ∑ k : Fin 2048, L (ix2 p k) * R (ix2 k j) := by
  refine (Ideal.matmul_constant_zero_apply dot_S512x2048_S2048x4096_S512x4096_1_0_0_1_n_n none L R (ix2 p j)).trans ?_
  rw [← Equiv.sum_comp (contrEquiv1 dot_S512x2048_S2048x4096_S512x4096_1_0_0_1_n_n 2048 rfl rfl).symm]
  refine Finset.sum_congr rfl fun k _ => ?_
  have hk := contrEquiv1_symm_val dot_S512x2048_S2048x4096_S512x4096_1_0_0_1_n_n 2048 rfl rfl k
  have el : dot_S512x2048_S2048x4096_S512x4096_1_0_0_1_n_n.lhsIdx (ix2 p j) ((contrEquiv1 dot_S512x2048_S2048x4096_S512x4096_1_0_0_1_n_n 2048 rfl rfl).symm k) = ix2 p k :=
    funext fun a => Fin.ext (by
      match a with
      | ⟨0, _⟩ =>
        show (dot_S512x2048_S2048x4096_S512x4096_1_0_0_1_n_n.lhsIdx (ix2 p j) _ 0).val = p.val
        unfold DotDims.lhsIdx
        rw [dif_neg (show ¬(0 : Fin S512x2048.rank) ∈ dot_S512x2048_S2048x4096_S512x4096_1_0_0_1_n_n.lhsBatch by decide),
          dif_pos (show (0 : Fin S512x2048.rank) ∈ dot_S512x2048_S2048x4096_S512x4096_1_0_0_1_n_n.lhsNonContracting by decide)]
        rfl
      | ⟨1, _⟩ => exact (dot_S512x2048_S2048x4096_S512x4096_1_0_0_1_n_n.lhsIdx_val_of_single rfl (ix2 p j) _).trans hk)
  have er : dot_S512x2048_S2048x4096_S512x4096_1_0_0_1_n_n.rhsIdx (ix2 p j) ((contrEquiv1 dot_S512x2048_S2048x4096_S512x4096_1_0_0_1_n_n 2048 rfl rfl).symm k) = ix2 k j :=
    funext fun a => Fin.ext (by
      match a with
      | ⟨0, _⟩ => exact (dot_S512x2048_S2048x4096_S512x4096_1_0_0_1_n_n.rhsIdx_val_of_single rfl (ix2 p j) _).trans hk
      | ⟨1, _⟩ =>
        show (dot_S512x2048_S2048x4096_S512x4096_1_0_0_1_n_n.rhsIdx (ix2 p j) _ 1).val = j.val
        unfold DotDims.rhsIdx
        rw [dif_neg (show ¬(1 : Fin S2048x4096.rank) ∈ dot_S512x2048_S2048x4096_S512x4096_1_0_0_1_n_n.rhsBatch by decide),
          dif_pos (show (1 : Fin S2048x4096.rank) ∈ dot_S512x2048_S2048x4096_S512x4096_1_0_0_1_n_n.rhsNonContracting by decide)]
        rfl)
  rw [el, er]

/-- The bias, re-laid as one row and repeated down the 512 rows, at row `p` and column `j` is `b[j]`. -/
theorem bias_at (B : FVec Ideal S4096 .f32) (p : Fin 512) (j : Fin 4096) :
    broadcastTo S512x4096 (shapeCast S1x4096 B shapeCasts_S4096_S1x4096) broadcasts_S1x4096_S512x4096 (ix2 p j)
      = B (ix1 j) := by
  refine (broadcastTo_apply _ _ (ix2 p j) (ix2 (0 : Fin 1) j) (fun a => match a with
    | ⟨0, _⟩ => by show 0 = (if (1 : Nat) = 1 then 0 else p.val); rw [if_pos rfl]
    | ⟨1, _⟩ => by show j.val = (if (4096 : Nat) = 1 then 0 else j.val); rw [if_neg (by decide)])).trans ?_
  exact shapeCast_apply _ _ (ix2 (0 : Fin 1) j) (ix1 j) (by
    rw [Shape.rowMajor_val_one, Shape.rowMajor_val_two]; show j.val = 0 * 4096 + j.val; omega)

/-- The packed pre-activation of the block at row `p` and column `j`, with the sum over the 2048 stacked
    positions split into the input part and the hidden-state part. -/
theorem preact_block_at (X H : Vec Ideal S512x1024 .f32) (Wc : Vec Ideal S2048x4096 .bf16) (B : Vec Ideal S4096 .f32)
    (p : Fin 512) (j : Fin 4096) :
    k0_pay1 (F := Ideal) X H Wc B (ix2 p j)
      = ((∑ k : Fin 1024, X (ix2 p k) * Wc (ix2 (⟨k.val, by have := k.isLt; omega⟩ : Fin 2048) j))
          + ∑ k : Fin 1024, H (ix2 p k) * Wc (ix2 (⟨k.val + 1024, by have := k.isLt; omega⟩ : Fin 2048) j))
        + B (ix1 j) := by
  show addf (F := Ideal) (matmul dot_S512x2048_S2048x4096_S512x4096_1_0_0_1_n_n none
        (concatenate S512x2048 1 [⟨S512x1024, truncf .bf16 X bitsLt_bf16_f32⟩, ⟨S512x1024, truncf .bf16 H bitsLt_bf16_f32⟩]
          concatenates_S512x1024_S512x1024_S512x2048_d1)
        (shapeCast S2048x4096 Wc shapeCasts_S2048x4096_S2048x4096) (constant S512x4096 .f32 0x00000000#32))
      (broadcastTo S512x4096 (shapeCast S1x4096 B shapeCasts_S4096_S1x4096) broadcasts_S1x4096_S512x4096) (ix2 p j) = _
  rw [addf_apply, product_at, bias_at, shapeCast_self, sum_split_halves]
  refine congrArg₂ (· + ·) (congrArg₂ (· + ·) (Finset.sum_congr rfl fun k _ => ?_) (Finset.sum_congr rfl fun k _ => ?_)) rfl
  · rw [sideBySide_left]; rfl
  · rw [sideBySide_right]; rfl

end Cert.Lstm.Kernel

end
-- ==== Proof.KernelGates.lean ====
/-
  One grid point's block of the kernel, as the LSTM step on the rows the block holds.

  Grid point `T` (of 16) holds rows `512·T … 512·T + 511`. Suppose the loaded blocks are what they should be:
  the input, cell-state and hidden-state blocks are those rows of the three arrays, the weight block is W stacked
  on U, and the bias and peephole blocks are the whole vectors. Then at row `p` of the block and unit `q`, what
  the body leaves in the cell-state output block is the new cell state at row `512·T + p`, and what it leaves in
  the hidden-state output block is the new hidden state there. The four gate pre-activations are read from the
  packed product at columns `q`, `q + 1024`, `q + 2048`, `q + 3072`.
-/
import proofs.«121975_j39960375722061_2_alg».proof.Proof.Gen.KernelIdeal.Value
import proofs.«121975_j39960375722061_2_alg».proof.Proof.KernelPayload

noncomputable section

namespace Cert.Lstm.Kernel

open Idealize.ShloMosaic Idealize.ShloMosaic.ValueIdx Cert.KernelIdeal Cert.KernelIdeal.Gen Cert.KernelIdeal.Value Cert.Lstm

/-- The array row that row `p` of grid point `T`'s block is. -/
def rowOf (T : Nat) (hT : T < 16) (p : Fin 512) : Fin 8192 := ⟨T * 512 + p.val, by have := p.isLt; omega⟩

variable (x c h : Mat 8192 1024) (W U : Mat 1024 4096) (b : Row 4096) (pf pi po : Row 1024)
variable (T : Nat) (hT : T < 16)
variable (X C H : Vec Ideal S512x1024 .f32) (Wc : Vec Ideal S2048x4096 .bf16) (B : Vec Ideal S4096 .f32)
  (Pf Pi Po : Vec Ideal S1024 .f32)

/-- The block's packed pre-activation is the array's, at the block's rows. -/
theorem preact_block_eq
    (hX : ∀ (p : Fin 512) (k : Fin 1024), X (ix2 p k) = x (ix2 (rowOf T hT p) k))
    (hH : ∀ (p : Fin 512) (k : Fin 1024), H (ix2 p k) = h (ix2 (rowOf T hT p) k))
    (hWl : ∀ (k : Fin 1024) (j : Fin 4096), Wc (ix2 (⟨k.val, by have := k.isLt; omega⟩ : Fin 2048) j) = W (ix2 k j))
    (hWr : ∀ (k : Fin 1024) (j : Fin 4096), Wc (ix2 (⟨k.val + 1024, by have := k.isLt; omega⟩ : Fin 2048) j) = U (ix2 k j))
    (hB : ∀ j : Fin 4096, B (ix1 j) = b (ix1 j)) (p : Fin 512) (j : Fin 4096) :
    k0_pay1 (F := Ideal) X H Wc B (ix2 p j) = preact x h W U b (rowOf T hT p) j := by
  rw [preact_block_at]
  unfold preact
  simp only [hX, hH, hWl, hWr, hB]

/-- The cell-state output block holds the new cell state of the block's rows. -/
theorem cell_block_eq
    (hX : ∀ (p : Fin 512) (k : Fin 1024), X (ix2 p k) = x (ix2 (rowOf T hT p) k))
    (hC : ∀ (p : Fin 512) (k : Fin 1024), C (ix2 p k) = c (ix2 (rowOf T hT p) k))
    (hH : ∀ (p : Fin 512) (k : Fin 1024), H (ix2 p k) = h (ix2 (rowOf T hT p) k))
    (hWl : ∀ (k : Fin 1024) (j : Fin 4096), Wc (ix2 (⟨k.val, by have := k.isLt; omega⟩ : Fin 2048) j) = W (ix2 k j))
    (hWr : ∀ (k : Fin 1024) (j : Fin 4096), Wc (ix2 (⟨k.val + 1024, by have := k.isLt; omega⟩ : Fin 2048) j) = U (ix2 k j))
    (hB : ∀ j : Fin 4096, B (ix1 j) = b (ix1 j))
    (hPf : ∀ q : Fin 1024, Pf (ix1 q) = pf (ix1 q)) (hPi : ∀ q : Fin 1024, Pi (ix1 q) = pi (ix1 q))
    (p : Fin 512) (q : Fin 1024) :
    E9 (F := Ideal) X H Wc B Pf C Pi (ix2 p q) = cellNext x c h W U b pf pi (rowOf T hT p) q := by
  have hz := preact_block_eq x h W U b T hT X H Wc B hX hH hWl hWr hB p
  have i0 : ix9_0 (ix2 p q) = ix2 p (gcol 0 (by omega) q) := funext fun a => Fin.ext (by match a with | ⟨0, _⟩ => rfl | ⟨1, _⟩ => rfl)
  have i1 : ix9_1 (ix2 p q) = ix1 q := funext fun a => Fin.ext (by match a with | ⟨0, _⟩ => rfl)
  have i2 : ix9_2 (ix2 p q) = ix2 p q := funext fun a => Fin.ext (by match a with | ⟨0, _⟩ => rfl | ⟨1, _⟩ => rfl)
  have i3 : ix9_3 (ix2 p q) = ix2 p q := funext fun a => Fin.ext (by match a with | ⟨0, _⟩ => rfl | ⟨1, _⟩ => rfl)
  have i4 : ix9_4 (ix2 p q) = ix2 p (gcol 1024 (by omega) q) := funext fun a => Fin.ext (by match a with | ⟨0, _⟩ => rfl | ⟨1, _⟩ => rfl)
  have i5 : ix9_5 (ix2 p q) = ix1 q := funext fun a => Fin.ext (by match a with | ⟨0, _⟩ => rfl)
  have i6 : ix9_6 (ix2 p q) = ix2 p q := funext fun a => Fin.ext (by match a with | ⟨0, _⟩ => rfl | ⟨1, _⟩ => rfl)
  have i7 : ix9_7 (ix2 p q) = ix2 p (gcol 2048 (by omega) q) := funext fun a => Fin.ext (by match a with | ⟨0, _⟩ => rfl | ⟨1, _⟩ => rfl)
  show FloatOps.addf (FloatOps.mulf (FloatOps.logistic (FloatOps.addf ((k0_pay1 X H Wc B) (ix9_0 (ix2 p q)))
        (FloatOps.mulf (Pf (ix9_1 (ix2 p q))) (C (ix9_2 (ix2 p q)))))) (C (ix9_3 (ix2 p q))))
      (FloatOps.mulf (FloatOps.logistic (FloatOps.addf ((k0_pay1 X H Wc B) (ix9_4 (ix2 p q)))
        (FloatOps.mulf (Pi (ix9_5 (ix2 p q))) (C (ix9_6 (ix2 p q))))))
        (FloatOps.tanh ((k0_pay1 X H Wc B) (ix9_7 (ix2 p q))))) = _
  rw [i0, i1, i2, i3, i4, i5, i6, i7]
  simp only [hz, hC, hPf, hPi, Ideal.addf_def, Ideal.mulf_def, Ideal.logistic_def, Ideal.tanh_def]
  rfl

/-- The hidden-state output block holds the new hidden state of the block's rows. -/
theorem hidden_block_eq
    (hX : ∀ (p : Fin 512) (k : Fin 1024), X (ix2 p k) = x (ix2 (rowOf T hT p) k))
    (hC : ∀ (p : Fin 512) (k : Fin 1024), C (ix2 p k) = c (ix2 (rowOf T hT p) k))
    (hH : ∀ (p : Fin 512) (k : Fin 1024), H (ix2 p k) = h (ix2 (rowOf T hT p) k))
    (hWl : ∀ (k : Fin 1024) (j : Fin 4096), Wc (ix2 (⟨k.val, by have := k.isLt; omega⟩ : Fin 2048) j) = W (ix2 k j))
    (hWr : ∀ (k : Fin 1024) (j : Fin 4096), Wc (ix2 (⟨k.val + 1024, by have := k.isLt; omega⟩ : Fin 2048) j) = U (ix2 k j))
    (hB : ∀ j : Fin 4096, B (ix1 j) = b (ix1 j))
    (hPf : ∀ q : Fin 1024, Pf (ix1 q) = pf (ix1 q)) (hPi : ∀ q : Fin 1024, Pi (ix1 q) = pi (ix1 q))
    (hPo : ∀ q : Fin 1024, Po (ix1 q) = po (ix1 q))
    (p : Fin 512) (q : Fin 1024) :
    E8 (F := Ideal) X H Wc B Po Pf C Pi (ix2 p q) = hiddenNext x c h W U b pf pi po (rowOf T hT p) q := by
  have hz := preact_block_eq x h W U b T hT X H Wc B hX hH hWl hWr hB p
  have i0 : ix8_0 (ix2 p q) = ix2 p (gcol 3072 (by omega) q) := funext fun a => Fin.ext (by match a with | ⟨0, _⟩ => rfl | ⟨1, _⟩ => rfl)
  have i1 : ix8_1 (ix2 p q) = ix1 q := funext fun a => Fin.ext (by match a with | ⟨0, _⟩ => rfl)
  have i2 : ix8_2 (ix2 p q) = ix2 p (gcol 0 (by omega) q) := funext fun a => Fin.ext (by match a with | ⟨0, _⟩ => rfl | ⟨1, _⟩ => rfl)
  have i3 : ix8_3 (ix2 p q) = ix1 q := funext fun a => Fin.ext (by match a with | ⟨0, _⟩ => rfl)
  have i4 : ix8_4 (ix2 p q) = ix2 p q := funext fun a => Fin.ext (by match a with | ⟨0, _⟩ => rfl | ⟨1, _⟩ => rfl)
  have i5 : ix8_5 (ix2 p q) = ix2 p q := funext fun a => Fin.ext (by match a with | ⟨0, _⟩ => rfl | ⟨1, _⟩ => rfl)
  have i6 : ix8_6 (ix2 p q) = ix2 p (gcol 1024 (by omega) q) := funext fun a => Fin.ext (by match a with | ⟨0, _⟩ => rfl | ⟨1, _⟩ => rfl)
  have i7 : ix8_7 (ix2 p q) = ix1 q := funext fun a => Fin.ext (by match a with | ⟨0, _⟩ => rfl)
  have i8 : ix8_8 (ix2 p q) = ix2 p q := funext fun a => Fin.ext (by match a with | ⟨0, _⟩ => rfl | ⟨1, _⟩ => rfl)
  have i9 : ix8_9 (ix2 p q) = ix2 p (gcol 2048 (by omega) q) := funext fun a => Fin.ext (by match a with | ⟨0, _⟩ => rfl | ⟨1, _⟩ => rfl)
  have i10 : ix8_10 (ix2 p q) = ix2 p (gcol 0 (by omega) q) := funext fun a => Fin.ext (by match a with | ⟨0, _⟩ => rfl | ⟨1, _⟩ => rfl)
  have i11 : ix8_11 (ix2 p q) = ix1 q := funext fun a => Fin.ext (by match a with | ⟨0, _⟩ => rfl)
  have i12 : ix8_12 (ix2 p q) = ix2 p q := funext fun a => Fin.ext (by match a with | ⟨0, _⟩ => rfl | ⟨1, _⟩ => rfl)
  have i13 : ix8_13 (ix2 p q) = ix2 p q := funext fun a => Fin.ext (by match a with | ⟨0, _⟩ => rfl | ⟨1, _⟩ => rfl)
  have i14 : ix8_14 (ix2 p q) = ix2 p (gcol 1024 (by omega) q) := funext fun a => Fin.ext (by match a with | ⟨0, _⟩ => rfl | ⟨1, _⟩ => rfl)
  have i15 : ix8_15 (ix2 p q) = ix1 q := funext fun a => Fin.ext (by match a with | ⟨0, _⟩ => rfl)
  have i16 : ix8_16 (ix2 p q) = ix2 p q := funext fun a => Fin.ext (by match a with | ⟨0, _⟩ => rfl | ⟨1, _⟩ => rfl)
  have i17 : ix8_17 (ix2 p q) = ix2 p (gcol 2048 (by omega) q) := funext fun a => Fin.ext (by match a with | ⟨0, _⟩ => rfl | ⟨1, _⟩ => rfl)
  show FloatOps.mulf (FloatOps.logistic (FloatOps.addf ((k0_pay1 X H Wc B) (ix8_0 (ix2 p q)))
        (FloatOps.mulf (Po (ix8_1 (ix2 p q)))
          (FloatOps.addf (FloatOps.mulf (FloatOps.logistic (FloatOps.addf ((k0_pay1 X H Wc B) (ix8_2 (ix2 p q)))
              (FloatOps.mulf (Pf (ix8_3 (ix2 p q))) (C (ix8_4 (ix2 p q)))))) (C (ix8_5 (ix2 p q))))
            (FloatOps.mulf (FloatOps.logistic (FloatOps.addf ((k0_pay1 X H Wc B) (ix8_6 (ix2 p q)))
              (FloatOps.mulf (Pi (ix8_7 (ix2 p q))) (C (ix8_8 (ix2 p q))))))
              (FloatOps.tanh ((k0_pay1 X H Wc B) (ix8_9 (ix2 p q)))))))))
      (FloatOps.tanh (FloatOps.addf (FloatOps.mulf (FloatOps.logistic (FloatOps.addf ((k0_pay1 X H Wc B) (ix8_10 (ix2 p q)))
              (FloatOps.mulf (Pf (ix8_11 (ix2 p q))) (C (ix8_12 (ix2 p q)))))) (C (ix8_13 (ix2 p q))))
            (FloatOps.mulf (FloatOps.logistic (FloatOps.addf ((k0_pay1 X H Wc B) (ix8_14 (ix2 p q)))
              (FloatOps.mulf (Pi (ix8_15 (ix2 p q))) (C (ix8_16 (ix2 p q))))))
              (FloatOps.tanh ((k0_pay1 X H Wc B) (ix8_17 (ix2 p q))))))) = _
  rw [i0, i1, i2, i3, i4, i5, i6, i7, i8, i9, i10, i11, i12, i13, i14, i15, i16, i17]
  simp only [hz, hC, hPf, hPi, hPo, Ideal.addf_def, Ideal.mulf_def, Ideal.logistic_def, Ideal.tanh_def]
  rfl

end Cert.Lstm.Kernel

end
-- ==== Proof.KernelBlocks.lean ====
/-
  What each input window's block holds, in terms of the argument arrays.

  The grid has 16 points. At point `t` the windows over the inputs, the previous hidden state and the previous
  cell state hold rows `512·t … 512·t + 511` of their arrays; the windows over the stacked weights, the bias and
  the three peephole vectors hold the whole array at every point. The stacked-weight array itself is written
  before the kernel runs: the input weights W on top of the recurrent weights U (rows 0 … 1023 are W's, rows
  1024 … 2047 are U's), narrowed to a shorter float format, which changes nothing on the extended reals.
-/
import proofs.«121975_j39960375722061_2_alg».proof.Proof.Gen.KernelIdeal.Frame
import proofs.«121975_j39960375722061_2_alg».proof.Proof.KernelGates
import Idealize.ShloMosaic.Lib.Pipeline.Value
import Idealize.ShloMosaic.Lib.StableHlo.Run

noncomputable section

namespace Cert.Lstm.Kernel

open Idealize.ShloMosaic Idealize.ShloMosaic.TcCoe Idealize.ShloMosaic.ValueIdx Idealize.SL.Sem
open Cert.KernelIdeal Cert.KernelIdeal.Gen Cert.Lstm

variable (m : (ℓ : Loc nD τ sig) → Buf (Elt Ideal) ℓ)

/-- A grid point's number is below 16. -/
theorem point_lt (t : Fin cfg0.N) : t.val < 16 := lt_of_lt_of_eq t.isLt N_0

/-- The windows' block indices at each of the 16 grid points: the row-blocked windows sit at block row `t`,
    the whole-array windows at block 0. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ win0_4.index t (0 : Fin 1) = 0
    ∧ win0_5.index t (0 : Fin 1) = 0
    ∧ win0_6.index t (0 : Fin 1) = 0
    ∧ win0_7.index t (0 : Fin 1) = 0
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Window 0's block at grid point `t` is rows `512·t … 512·t + 511` of the inputs. -/
theorem block0_at (c : Dev nD) (t : Fin cfg0.N) (p : Fin 512) (k : Fin 1024) :
    (iblk m c 0 t : Vec Ideal S512x1024 .f32) (ix2 p k)
      = (m ((c : Thread nD τ).loc main_arg0) : S8192x1024.Idx → Elt Ideal .f32) (ix2 (rowOf t.val (point_lt t) p) k) := by
  have hi := (index_facts t).1
  unfold iblk
  rw [View.read_apply]
  show V m c main_arg0 _ = _
  rw [V_main_arg0]
  congr 1
  funext a
  apply Fin.ext
  match a with
  | ⟨0, _⟩ => show win0_0.index t (0 : Fin 2) * 512 + 1 * p.val = t.val * 512 + p.val; rw [hi.1]; omega
  | ⟨1, _⟩ => show win0_0.index t (1 : Fin 2) * 1024 + 1 * k.val = k.val; rw [hi.2]; omega

/-- Window 1's block at grid point `t` is rows `512·t … 512·t + 511` of the previous hidden state. -/
theorem block1_at (c : Dev nD) (t : Fin cfg0.N) (p : Fin 512) (k : Fin 1024) :
    (iblk m c 1 t : Vec Ideal S512x1024 .f32) (ix2 p k)
      = (m ((c : Thread nD τ).loc main_arg2) : S8192x1024.Idx → Elt Ideal .f32) (ix2 (rowOf t.val (point_lt t) p) k) := by
  have hi := (index_facts t).2.1
  unfold iblk
  rw [View.read_apply]
  show V m c main_arg2 _ = _
  rw [V_main_arg2]
  congr 1
  funext a
  apply Fin.ext
  match a with
  | ⟨0, _⟩ => show win0_1.index t (0 : Fin 2) * 512 + 1 * p.val = t.val * 512 + p.val; rw [hi.1]; omega
  | ⟨1, _⟩ => show win0_1.index t (1 : Fin 2) * 1024 + 1 * k.val = k.val; rw [hi.2]; omega

/-- Window 2's block at grid point `t` is rows `512·t … 512·t + 511` of the previous cell state. -/
theorem block2_at (c : Dev nD) (t : Fin cfg0.N) (p : Fin 512) (k : Fin 1024) :
    (iblk m c 2 t : Vec Ideal S512x1024 .f32) (ix2 p k)
      = (m ((c : Thread nD τ).loc main_arg1) : S8192x1024.Idx → Elt Ideal .f32) (ix2 (rowOf t.val (point_lt t) p) k) := by
  have hi := (index_facts t).2.2.1
  unfold iblk
  rw [View.read_apply]
  show V m c main_arg1 _ = _
  rw [V_main_arg1]
  congr 1
  funext a
  apply Fin.ext
  match a with
  | ⟨0, _⟩ => show win0_2.index t (0 : Fin 2) * 512 + 1 * p.val = t.val * 512 + p.val; rw [hi.1]; omega
  | ⟨1, _⟩ => show win0_2.index t (1 : Fin 2) * 1024 + 1 * k.val = k.val; rw [hi.2]; omega

/-- Window 3's block at every grid point is the whole stacked-weight array. -/
theorem block3_at (c : Dev nD) (t : Fin cfg0.N) (k : Fin 2048) (j : Fin 4096) :
    (iblk m c 3 t : Vec Ideal S2048x4096 .bf16) (ix2 k j)
      = (V m c main_v1 : S2048x4096.Idx → Elt Ideal .bf16) (ix2 k j) := by
  have hi := (index_facts t).2.2.2.1
  unfold iblk
  rw [View.read_apply]
  show V m c main_v1 _ = _
  congr 1
  funext a
  apply Fin.ext
  match a with
  | ⟨0, _⟩ => show win0_3.index t (0 : Fin 2) * 2048 + 1 * k.val = k.val; rw [hi.1]; omega
  | ⟨1, _⟩ => show win0_3.index t (1 : Fin 2) * 4096 + 1 * j.val = j.val; rw [hi.2]; omega

/-- Window 4's block at every grid point is the whole of the bias. -/
theorem block4_at (c : Dev nD) (t : Fin cfg0.N) (j : Fin 4096) :
    (iblk m c 4 t : Vec Ideal S4096 .f32) (ix1 j)
      = (m ((c : Thread nD τ).loc main_arg5) : S4096.Idx → Elt Ideal .f32) (ix1 j) := by
  have hi := (index_facts t).2.2.2.2.1
  unfold iblk
  rw [View.read_apply]
  show V m c main_arg5 _ = _
  rw [V_main_arg5]
  congr 1
  funext a
  apply Fin.ext
  match a with
  | ⟨0, _⟩ => show win0_4.index t (0 : Fin 1) * 4096 + 1 * j.val = j.val; rw [hi]; omega

/-- Window 5's block at every grid point is the whole of the forget gate's peephole vector. -/
theorem block5_at (c : Dev nD) (t : Fin cfg0.N) (j : Fin 1024) :
    (iblk m c 5 t : Vec Ideal S1024 .f32) (ix1 j)
      = (m ((c : Thread nD τ).loc main_arg6) : S1024.Idx → Elt Ideal .f32) (ix1 j) := by
  have hi := (index_facts t).2.2.2.2.2.1
  unfold iblk
  rw [View.read_apply]
  show V m c main_arg6 _ = _
  rw [V_main_arg6]
  congr 1
  funext a
  apply Fin.ext
  match a with
  | ⟨0, _⟩ => show win0_5.index t (0 : Fin 1) * 1024 + 1 * j.val = j.val; rw [hi]; omega

/-- Window 6's block at every grid point is the whole of the input gate's peephole vector. -/
theorem block6_at (c : Dev nD) (t : Fin cfg0.N) (j : Fin 1024) :
    (iblk m c 6 t : Vec Ideal S1024 .f32) (ix1 j)
      = (m ((c : Thread nD τ).loc main_arg7) : S1024.Idx → Elt Ideal .f32) (ix1 j) := by
  have hi := (index_facts t).2.2.2.2.2.2.1
  unfold iblk
  rw [View.read_apply]
  show V m c main_arg7 _ = _
  rw [V_main_arg7]
  congr 1
  funext a
  apply Fin.ext
  match a with
  | ⟨0, _⟩ => show win0_6.index t (0 : Fin 1) * 1024 + 1 * j.val = j.val; rw [hi]; omega

/-- Window 7's block at every grid point is the whole of the output gate's peephole vector. -/
theorem block7_at (c : Dev nD) (t : Fin cfg0.N) (j : Fin 1024) :
    (iblk m c 7 t : Vec Ideal S1024 .f32) (ix1 j)
      = (m ((c : Thread nD τ).loc main_arg8) : S1024.Idx → Elt Ideal .f32) (ix1 j) := by
  have hi := (index_facts t).2.2.2.2.2.2.2.1
  unfold iblk
  rw [View.read_apply]
  show V m c main_arg8 _ = _
  rw [V_main_arg8]
  congr 1
  funext a
  apply Fin.ext
  match a with
  | ⟨0, _⟩ => show win0_7.index t (0 : Fin 1) * 1024 + 1 * j.val = j.val; rw [hi]; omega

/-- The stacked-weight array as the kernel finds it: W on top of U (the narrowing to a shorter float format
    that follows is the identity on the extended reals). -/
theorem stacked_eq (c : Dev nD) :
    (V m c main_v1 : S2048x4096.Idx → Elt Ideal .bf16)
      = concatenate S2048x4096 0
          [⟨S1024x4096, (m ((c : Thread nD τ).loc main_arg3) : S1024x4096.Idx → Elt Ideal .f32)⟩,
           ⟨S1024x4096, (m ((c : Thread nD τ).loc main_arg4) : S1024x4096.Idx → Elt Ideal .f32)⟩]
          concatenates_S1024x4096_S1024x4096_S2048x4096_d0 := by
  have e : (V m c main_v1 : S2048x4096.Idx → Elt Ideal .bf16)
      = truncf (F := Ideal) .bf16 (concatenate S2048x4096 0
          [⟨S1024x4096, (m ((c : Thread nD τ).loc main_arg3) : S1024x4096.Idx → Elt Ideal .f32)⟩,
           ⟨S1024x4096, (m ((c : Thread nD τ).loc main_arg4) : S1024x4096.Idx → Elt Ideal .f32)⟩]
          concatenates_S1024x4096_S1024x4096_S2048x4096_d0) bitsLt_bf16_f32 := by
    dsimp only [Gen.V, Gen.hostOps0]
    after_results
  exact e

/-- Rows 0 … 1023 of the stacked weights are the input weights. -/
theorem stacked_top (c : Dev nD) (k : Fin 1024) (j : Fin 4096) :
    (V m c main_v1 : S2048x4096.Idx → Elt Ideal .bf16) (ix2 (⟨k.val, by have := k.isLt; omega⟩ : Fin 2048) j)
      = (m ((c : Thread nD τ).loc main_arg3) : S1024x4096.Idx → Elt Ideal .f32) (ix2 k j) := by
  rw [stacked_eq]
  refine concatenate_pair_apply_left (0 : Fin S2048x4096.rank) _ _ concatenates_S1024x4096_S1024x4096_S2048x4096_d0
    (ix2 (⟨k.val, by have := k.isLt; omega⟩ : Fin 2048) j) rfl (ix2 k j) ?_
  intro b
  match b with
  | ⟨0, _⟩ => rfl
  | ⟨1, _⟩ => rfl

/-- Rows 1024 … 2047 of the stacked weights are the recurrent weights. -/
theorem stacked_bottom (c : Dev nD) (k : Fin 1024) (j : Fin 4096) :
    (V m c main_v1 : S2048x4096.Idx → Elt Ideal .bf16) (ix2 (⟨k.val + 1024, by have := k.isLt; omega⟩ : Fin 2048) j)
      = (m ((c : Thread nD τ).loc main_arg4) : S1024x4096.Idx → Elt Ideal .f32) (ix2 k j) := by
  rw [stacked_eq]
  refine concatenate_pair_apply_right (0 : Fin S2048x4096.rank) _ _ concatenates_S1024x4096_S1024x4096_S2048x4096_d0
    (ix2 (⟨k.val + 1024, by have := k.isLt; omega⟩ : Fin 2048) j) rfl rfl (ix2 k j) ?_ ?_
  · intro b hb
    match b with
    | ⟨0, _⟩ => exact absurd rfl hb
    | ⟨1, _⟩ => rfl
  · rfl

end Cert.Lstm.Kernel

end
-- ==== Proof.KernelRun.lean ====
/-
  The kernel's run: after it, the first result array is the new hidden state and the second the new cell state.

  Each of the 16 grid points writes one band of 512 rows of each result, and what it writes is that band of the
  LSTM step applied to the argument arrays (the block lemmas, fed with what each input block holds). The bands
  are disjoint and together are all 8192 rows, so each result array ends as the whole array of the step.
-/
import proofs.«121975_j39960375722061_2_alg».proof.Proof.Gen.KernelIdeal.Value
import proofs.«121975_j39960375722061_2_alg».proof.Proof.KernelBlocks

noncomputable section

namespace Cert.Lstm.Kernel

open Idealize.ShloMosaic Idealize.ShloMosaic.TcCoe Idealize.ShloMosaic.ValueIdx Idealize.SL.Sem
open Cert.KernelIdeal Cert.KernelIdeal.Gen Cert.Lstm
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- A load of a whole 512 × 1024 block reads the block. -/
theorem ld_rows (X : Vec Ideal S512x1024 .f32) : View.ld X r0_0 = X := View.ld_unit_zero (S := S512x1024) zero2 _ X
/-- A load of the whole stacked-weight block reads the block. -/
theorem ld_weights (X : Vec Ideal S2048x4096 .bf16) : View.ld X r0_1 = X := View.ld_unit_zero (S := S2048x4096) zero2 _ X
/-- A load of the whole bias block reads the block. -/
theorem ld_bias (X : Vec Ideal S4096 .f32) : View.ld X r0_2 = X := View.ld_unit_zero (S := S4096) zero1 _ X
/-- A load of a whole peephole block reads the block. -/
theorem ld_peep (X : Vec Ideal S1024 .f32) : View.ld X r0_3 = X := View.ld_unit_zero (S := S1024) zero1 _ X

/-- The new hidden state of the argument arrays on device `c`. -/
def hiddenOf (c : Dev nD) : S8192x1024.Idx → Elt Ideal .f32 :=
  hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The new cell state of the argument arrays on device `c`. -/
def cellOf (c : Dev nD) : S8192x1024.Idx → Elt Ideal .f32 :=
  cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What grid point `t` writes back to the new cell state array is block `t` of the new cell state of the LSTM step. -/
theorem flushed9_eq (c : Dev nD) (t : Fin cfg0.N) :
    (dats m 0 c).flushed 9 t = ((cfg0.win 9).blk t).view.read (Elt Ideal) (cellOf m c) := by
  rw [Value.flushed9]
  unfold out0_9
  funext y
  obtain ⟨p, q, rfl⟩ : ∃ (p : Fin 512) (q : Fin 1024), y = ix2 p q := ⟨y 0, y 1, eq_ix2 y⟩
  have hi := (index_facts t).2.2.2.2.2.2.2.2.2
  have e0 : rowOf t.val (point_lt t) p = (((cfg0.win 9).blk t).view.emb (ix2 p q)) 0 := Fin.ext (by
    show t.val * 512 + p.val = win0_9.index t (0 : Fin 2) * 512 + 1 * p.val; rw [hi.1]; omega)
  have e1 : q = (((cfg0.win 9).blk t).view.emb (ix2 p q)) 1 := Fin.ext (by
    show q.val = win0_9.index t (1 : Fin 2) * 1024 + 1 * q.val; rw [hi.2]; omega)
  show View.canon [⟨r0_0, k0_pay2 (View.ld (iblk m c 0 t) r0_0) (View.ld (iblk m c 1 t) r0_0) (View.ld (iblk m c 3 t) r0_1) (View.ld (iblk m c 4 t) r0_2) (View.ld (iblk m c 2 t) r0_0) (View.ld (iblk m c 5 t) r0_3) (View.ld (iblk m c 6 t) r0_3)⟩] (ix2 p q)
    = cellOf m c (((cfg0.win 9).blk t).view.emb (ix2 p q))
  rw [Value.canon9_eq]
  refine (cell_block_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) t.val (point_lt t) _ _ _ _ _ _ _
    (fun p k => (congrFun (ld_rows (iblk m c 0 t)) (ix2 p k)).trans (block0_at m c t p k))
    (fun p k => (congrFun (ld_rows (iblk m c 2 t)) (ix2 p k)).trans (block2_at m c t p k))
    (fun p k => (congrFun (ld_rows (iblk m c 1 t)) (ix2 p k)).trans (block1_at m c t p k))
    (fun k j => (congrFun (ld_weights (iblk m c 3 t)) (ix2 _ j)).trans ((block3_at m c t _ j).trans (stacked_top m c k j)))
    (fun k j => (congrFun (ld_weights (iblk m c 3 t)) (ix2 _ j)).trans ((block3_at m c t _ j).trans (stacked_bottom m c k j)))
    (fun j => (congrFun (ld_bias (iblk m c 4 t)) (ix1 j)).trans (block4_at m c t j))
    (fun q => (congrFun (ld_peep (iblk m c 5 t)) (ix1 q)).trans (block5_at m c t q))
    (fun q => (congrFun (ld_peep (iblk m c 6 t)) (ix1 q)).trans (block6_at m c t q))
    p q).trans ?_
  exact congrArg₂ (cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) e0 e1

/-- What grid point `t` writes back to the new hidden state array is block `t` of the new hidden state of the LSTM step. -/
theorem flushed8_eq (c : Dev nD) (t : Fin cfg0.N) :
    (dats m 0 c).flushed 8 t = ((cfg0.win 8).blk t).view.read (Elt Ideal) (hiddenOf m c) := by
  rw [Value.flushed8]
  unfold out0_8
  funext y
  obtain ⟨p, q, rfl⟩ : ∃ (p : Fin 512) (q : Fin 1024), y = ix2 p q := ⟨y 0, y 1, eq_ix2 y⟩
  have hi := (index_facts t).2.2.2.2.2.2.2.2.1
  have e0 : rowOf t.val (point_lt t) p = (((cfg0.win 8).blk t).view.emb (ix2 p q)) 0 := Fin.ext (by
    show t.val * 512 + p.val = win0_8.index t (0 : Fin 2) * 512 + 1 * p.val; rw [hi.1]; omega)
  have e1 : q = (((cfg0.win 8).blk t).view.emb (ix2 p q)) 1 := Fin.ext (by
    show q.val = win0_8.index t (1 : Fin 2) * 1024 + 1 * q.val; rw [hi.2]; omega)
  show View.canon [⟨r0_0, k0_pay3 (View.ld (iblk m c 0 t) r0_0) (View.ld (iblk m c 1 t) r0_0) (View.ld (iblk m c 3 t) r0_1) (View.ld (iblk m c 4 t) r0_2) (View.ld (iblk m c 2 t) r0_0) (View.ld (iblk m c 5 t) r0_3) (View.ld (iblk m c 6 t) r0_3) (View.ld (iblk m c 7 t) r0_3)⟩] (ix2 p q)
    = hiddenOf m c (((cfg0.win 8).blk t).view.emb (ix2 p q))
  rw [Value.canon8_eq]
  refine (hidden_block_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) t.val (point_lt t) _ _ _ _ _ _ _ _
    (fun p k => (congrFun (ld_rows (iblk m c 0 t)) (ix2 p k)).trans (block0_at m c t p k))
    (fun p k => (congrFun (ld_rows (iblk m c 2 t)) (ix2 p k)).trans (block2_at m c t p k))
    (fun p k => (congrFun (ld_rows (iblk m c 1 t)) (ix2 p k)).trans (block1_at m c t p k))
    (fun k j => (congrFun (ld_weights (iblk m c 3 t)) (ix2 _ j)).trans ((block3_at m c t _ j).trans (stacked_top m c k j)))
    (fun k j => (congrFun (ld_weights (iblk m c 3 t)) (ix2 _ j)).trans ((block3_at m c t _ j).trans (stacked_bottom m c k j)))
    (fun j => (congrFun (ld_bias (iblk m c 4 t)) (ix1 j)).trans (block4_at m c t j))
    (fun q => (congrFun (ld_peep (iblk m c 5 t)) (ix1 q)).trans (block5_at m c t q))
    (fun q => (congrFun (ld_peep (iblk m c 6 t)) (ix1 q)).trans (block6_at m c t q))
    (fun q => (congrFun (ld_peep (iblk m c 7 t)) (ix1 q)).trans (block7_at m c t q))
    p q).trans ?_
  exact congrArg₂ (hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) e0 e1

/-- An index of the array is in point `t`'s block of window 8 iff each coordinate is in the block's range. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v2_0).slice (win0_8.rect t)).set ↔ _
  rw [View.set_slice_whole, Rect.mem_set_unit]
  exact Iff.rfl

/-- The 16 row bands cover the array: row `r` lies in the block of point `r / 512`. -/
theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, by rw [show cfg0.N = 16 from N_0]; omega⟩, rfl⟩
  have hi := (index_facts t).2.2.2.2.2.2.2.2.1
  refine ⟨t, flush0_8 t, ?_⟩
  rw [mem_blk8]
  intro a
  match a with
  | ⟨0, _⟩ =>
    show win0_8.index t (0 : Fin 2) * 512 ≤ (i 0).val ∧ (i 0).val < win0_8.index t (0 : Fin 2) * 512 + 512
    rw [hi.1, ht]; omega
  | ⟨1, _⟩ =>
    show win0_8.index t (1 : Fin 2) * 1024 ≤ (i 1).val ∧ (i 1).val < win0_8.index t (1 : Fin 2) * 1024 + 1024
    rw [hi.2]; omega

/-- An index of the array is in point `t`'s block of window 9 iff each coordinate is in the block's range. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v2_1).slice (win0_9.rect t)).set ↔ _
  rw [View.set_slice_whole, Rect.mem_set_unit]
  exact Iff.rfl

/-- The 16 row bands cover the array: row `r` lies in the block of point `r / 512`. -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, by rw [show cfg0.N = 16 from N_0]; omega⟩, rfl⟩
  have hi := (index_facts t).2.2.2.2.2.2.2.2.2
  refine ⟨t, flush0_9 t, ?_⟩
  rw [mem_blk9]
  intro a
  match a with
  | ⟨0, _⟩ =>
    show win0_9.index t (0 : Fin 2) * 512 ≤ (i 0).val ∧ (i 0).val < win0_9.index t (0 : Fin 2) * 512 + 512
    rw [hi.1, ht]; omega
  | ⟨1, _⟩ =>
    show win0_9.index t (1 : Fin 2) * 1024 ≤ (i 1).val ∧ (i 1).val < win0_9.index t (1 : Fin 2) * 1024 + 1024
    rw [hi.2]; omega

/-- After the run the first result array is the new hidden state. -/
theorem final8 (c : Dev nD) : (dats m 0 c).arrAt 8 cfg0.N = hiddenOf m c :=
  (dats m 0 c).arrAt_eq_of_cover 8 (hiddenOf m c) (fun t _ => flushed8_eq m c t) cover8

/-- After the run the second result array is the new cell state. -/
theorem final9 (c : Dev nD) : (dats m 0 c).arrAt 9 cfg0.N = cellOf m c :=
  (dats m 0 c).arrAt_eq_of_cover 9 (cellOf m c) (fun t _ => flushed9_eq m c t) cover9

/-- Every weakly fair execution of the kernel program terminates with the two result arrays at the LSTM step of
    the argument arrays, and the argument arrays unchanged. -/
theorem run : θ_run defs (onTc (τ := τ) (main (F := Ideal))) ⟨m, fun _ => 0, ρ⟩ fun r => ∀ c : Dev nD,
      r.2.mem ((c : Thread nD τ).loc main_v2_0) = hiddenOf m c
      ∧ r.2.mem ((c : Thread nD τ).loc main_v2_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final8 m c), (h c).2.1.trans (final9 m c), (h c).2.2⟩)
    (Value.run_blocks m ρ)

end Cert.Lstm.Kernel

end
-- ==== Proof.lean ====
/-
  A fused LSTM cell step with peephole connections equals its reference, over the extended reals.

  Both programs compute, for 8192 batch rows and 1024 units, the packed gate pre-activations
      z = x · W + h · U + b        (a 8192 × 4096 matrix; four bands of 1024 columns: forget, input, candidate, output),
  then  c' = σ(z_f + p_f · c) · c + σ(z_i + p_i · c) · tanh z_c  and  h' = σ(z_o + p_o · c') · tanh c',
  and return h' and c'. The reference forms the two matrix products separately and adds them, and spells the
  sigmoid as 1 / (1 + e^(-t)). The kernel works on bands of 512 rows; in each it puts the rows of x and h side by
  side, multiplies ONCE by W stacked on U, and uses the logistic function directly.

  The two agree because a sum over the 2048 stacked positions is the sum over the first 1024 (the x · W part)
  plus the sum over the last 1024 (the h · U part) — a regrouping of a finite sum, valid in any additive
  commutative monoid, so the finiteness of the inputs is never used — and because the logistic function IS
  1 / (1 + e^(-t)) on every extended real. Changes of float format are the identity here.

  Modules: LstmSpec (the step as one function of the nine argument arrays, and the regrouping law), RefSpec (the
  reference computes it), KernelPayload (the kernel's packed pre-activation at an index of a band), KernelGates
  (a band of the kernel's results is that band of the step), KernelBlocks (what each loaded block holds),
  KernelRun (the bands cover the arrays, so the kernel's results are the step's). The kernel is its own
  idealization (no operation was rewritten), so that conjunct is trivial.
-/
import proofs.«121975_j39960375722061_2_alg».proof.Defs
import proofs.«121975_j39960375722061_2_alg».proof.Proof.Gen.Kernel
import proofs.«121975_j39960375722061_2_alg».proof.Proof.Gen.Kernel.Skeleton
import proofs.«121975_j39960375722061_2_alg».proof.Proof.Gen.Kernel.Launch
import proofs.«121975_j39960375722061_2_alg».proof.Proof.Gen.Kernel.Points
import proofs.«121975_j39960375722061_2_alg».proof.Proof.Gen.Kernel.Frame
import proofs.«121975_j39960375722061_2_alg».proof.Proof.Gen.KernelIdeal
import proofs.«121975_j39960375722061_2_alg».proof.Proof.Gen.KernelIdeal.Skeleton
import proofs.«121975_j39960375722061_2_alg».proof.Proof.Gen.KernelIdeal.Launch
import proofs.«121975_j39960375722061_2_alg».proof.Proof.Gen.KernelIdeal.Points
import proofs.«121975_j39960375722061_2_alg».proof.Proof.Gen.KernelIdeal.Frame
import proofs.«121975_j39960375722061_2_alg».proof.Proof.Gen.KernelIdeal.Value
import proofs.«121975_j39960375722061_2_alg».proof.Proof.Gen.ReferenceIdeal
import proofs.«121975_j39960375722061_2_alg».proof.Proof.Gen.ReferenceIdeal.Run
import proofs.«121975_j39960375722061_2_alg».proof.Proof.Gen.ReferenceIdeal.Read
import proofs.«121975_j39960375722061_2_alg».proof.Proof.Gen.Pre_finite_inputs
import proofs.«121975_j39960375722061_2_alg».proof.Proof.RefSpec
import proofs.«121975_j39960375722061_2_alg».proof.Proof.KernelRun
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the nine arguments both programs end with the new hidden state and the new
    cell state of the LSTM step of those arguments. -/
theorem algebraic : Cert.algebraic_KernelIdeal_ReferenceIdeal := by
  intro m ρ m' ρ' _ hagree
  refine ⟨fun c => Cert.Lstm.Kernel.hiddenOf m c, fun c => Cert.Lstm.Kernel.cellOf m c, Cert.Lstm.Kernel.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨?_, ?_, (h c).2.2⟩
  · refine (h c).1.trans ?_
    rw [Cert.ReferenceIdeal.Read.val_main_v45_eq, Cert.Lstm.Ref.hidden_eq, a0, a1, a2, a3, a4, a5, a6, a7, a8]
    rfl
  · refine (h c).2.1.trans ((Cert.ReferenceIdeal.Read.val_main_v33_eq _ _ _ _ _ _ _ _).trans ?_)
    rw [Cert.Lstm.Ref.cell_eq, a0, a1, a2, a3, a4, a5, a6, a7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
